-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .bf16⟩
  | .hbm, ⟨9, _⟩ => ⟨S1x4096, .f32⟩
  | .hbm, ⟨10, _⟩ => ⟨S1x4096, .f32⟩
  | .hbm, ⟨11, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8192x4096, .f32⟩
  | .hbm, ⟨12, _⟩ => ⟨S1x4096, .f32⟩
  | .hbm, ⟨13, _⟩ => ⟨S8192x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Payload.lean ====
/-
  What one grid point computes, read at one element.  The body loads a 512-row block `a` of activations, a 1024-row
  block `w` of scaled weights and two one-row blocks `u`, `v` of 1024 scales and shifts, and stores

      (a · wᵀ)[p, q] · u[0, q] + v[0, q]  =  (∑ k, a[p, k] · w[q, k]) · u[0, q] + v[0, q]       (p < 512, q < 1024).

  On the extended reals the rounding to bf16 before the product is the identity, and the product into a zero
  accumulator is the plain sum over the contracted axis `k < 4096`.
-/
import proofs.«106463_j15290083574248_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.OneBitLinear.Kernel

open Cert.KernelIdeal Cert.KernelIdeal.Gen Idealize.ShloMosaic Idealize.ShloMosaic.ValueIdx

/-- Along the kept axis the left operand of the block product is read at the output's row … -/
theorem lhs_row (i : S512x1024.Idx) (κ : dot_S512x4096_S1024x4096_S512x1024_1_1_0_0_n_n.contr.Idx) :
    (dot_S512x4096_S1024x4096_S512x1024_1_1_0_0_n_n.lhsIdx i κ 0).val = (i 0).val := by
  unfold DotDims.lhsIdx
  rw [dif_neg (show ¬(0 : Fin S512x4096.rank) ∈ dot_S512x4096_S1024x4096_S512x1024_1_1_0_0_n_n.lhsBatch by decide),
    dif_pos (show (0 : Fin S512x4096.rank) ∈ dot_S512x4096_S1024x4096_S512x1024_1_1_0_0_n_n.lhsNonContracting by decide)]
  rfl

/-- … and along the contracted axis at the contraction coordinate. -/
theorem lhs_contr (i : S512x1024.Idx) (κ : dot_S512x4096_S1024x4096_S512x1024_1_1_0_0_n_n.contr.Idx) :
    (dot_S512x4096_S1024x4096_S512x1024_1_1_0_0_n_n.lhsIdx i κ 1).val = (κ ⟨0, by decide⟩).val :=
  dot_S512x4096_S1024x4096_S512x1024_1_1_0_0_n_n.lhsIdx_val_of_single rfl i κ

/-- The right operand is read at the output's COLUMN along its kept axis (the product contracts the second axis of
    both operands) … -/
theorem rhs_row (i : S512x1024.Idx) (κ : dot_S512x4096_S1024x4096_S512x1024_1_1_0_0_n_n.contr.Idx) :
    (dot_S512x4096_S1024x4096_S512x1024_1_1_0_0_n_n.rhsIdx i κ 0).val = (i 1).val := by
  unfold DotDims.rhsIdx
  rw [dif_neg (show ¬(0 : Fin S1024x4096.rank) ∈ dot_S512x4096_S1024x4096_S512x1024_1_1_0_0_n_n.rhsBatch by decide),
    dif_pos (show (0 : Fin S1024x4096.rank) ∈ dot_S512x4096_S1024x4096_S512x1024_1_1_0_0_n_n.rhsNonContracting by decide)]
  rfl

/-- … and at the contraction coordinate along the contracted one. -/
theorem rhs_contr (i : S512x1024.Idx) (κ : dot_S512x4096_S1024x4096_S512x1024_1_1_0_0_n_n.contr.Idx) :
    (dot_S512x4096_S1024x4096_S512x1024_1_1_0_0_n_n.rhsIdx i κ 1).val = (κ ⟨0, by decide⟩).val :=
  dot_S512x4096_S1024x4096_S512x1024_1_1_0_0_n_n.rhsIdx_val_of_single rfl i κ

/-- The left operand of the block product at output `(p, q)` and contraction coordinate `k` is `(p, k)`. -/
theorem lhsIdx_eq (p : Fin 512) (q : Fin 1024) (k : Fin 4096) :
    dot_S512x4096_S1024x4096_S512x1024_1_1_0_0_n_n.lhsIdx (ix2 p q) ((contrEquiv1 dot_S512x4096_S1024x4096_S512x1024_1_1_0_0_n_n 4096 rfl rfl).symm k) = ix2 p k := by
  have hk := contrEquiv1_symm_val dot_S512x4096_S1024x4096_S512x1024_1_1_0_0_n_n 4096 rfl rfl k
  refine funext fun a => Fin.ext ?_
  match a with
  | ⟨0, _⟩ => exact lhs_row _ _
  | ⟨1, _⟩ => exact (lhs_contr _ _).trans hk

/-- The right operand there is `(q, k)`. -/
theorem rhsIdx_eq (p : Fin 512) (q : Fin 1024) (k : Fin 4096) :
    dot_S512x4096_S1024x4096_S512x1024_1_1_0_0_n_n.rhsIdx (ix2 p q) ((contrEquiv1 dot_S512x4096_S1024x4096_S512x1024_1_1_0_0_n_n 4096 rfl rfl).symm k) = ix2 q k := by
  have hk := contrEquiv1_symm_val dot_S512x4096_S1024x4096_S512x1024_1_1_0_0_n_n 4096 rfl rfl k
  refine funext fun a => Fin.ext ?_
  match a with
  | ⟨0, _⟩ => exact rhs_row _ _
  | ⟨1, _⟩ => exact (rhs_contr _ _).trans hk

/-- The block product into a zero accumulator, at `(p, q)`: row `p` of `a` against row `q` of `w`. -/
theorem blockProduct_apply (a : FVec Ideal S512x4096 .bf16) (w : FVec Ideal S1024x4096 .bf16) (p : Fin 512) (q : Fin 1024) :
    matmul dot_S512x4096_S1024x4096_S512x1024_1_1_0_0_n_n none a w (constant (F := Ideal) S512x1024 .f32 0x00000000#32) (ix2 p q)
      = ∑ k : Fin 4096, a (ix2 p k) * w (ix2 q k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  rw [lhsIdx_eq, rhsIdx_eq]

/-- A one-row block broadcast down 512 rows reads its column. -/
theorem rowBroadcast_apply (u : FVec Ideal S1x1024 .f32) (p : Fin 512) (q : Fin 1024) :
    broadcastTo S512x1024 u broadcasts_S1x1024_S512x1024 (ix2 p q) = u (ix2 (0 : Fin 1) q) := by
  refine broadcastTo_apply u broadcasts_S1x1024_S512x1024 (ix2 p q) (ix2 (0 : Fin 1) q) fun a => ?_
  match a with
  | ⟨0, _⟩ => show 0 = if (1 : Nat) = 1 then 0 else _; rw [if_pos rfl]
  | ⟨1, _⟩ => show q.val = if (1024 : Nat) = 1 then 0 else q.val; rw [if_neg (by decide)]

/-- The stored value at `(p, q)`. -/
theorem payload_apply (a : Vec Ideal S512x4096 .f32) (w : Vec Ideal S1024x4096 .bf16) (u v : Vec Ideal S1x1024 .f32)
    (p : Fin 512) (q : Fin 1024) :
    k0_pay1 (F := Ideal) a w u v (ix2 p q)
      = (∑ k : Fin 4096, a (ix2 p k) * w (ix2 q k)) * u (ix2 (0 : Fin 1) q) + v (ix2 (0 : Fin 1) q) := by
  unfold k0_pay1
  simp only [shapeCast_self]
  rw [addf_apply, mulf_apply, rowBroadcast_apply, rowBroadcast_apply, blockProduct_apply]
  rfl

end Cert.OneBitLinear.Kernel

end
-- ==== Proof.Spec.lean ====
/-
  The one-bit linear layer as ONE function of its five argument arrays, index by index, on the extended reals:

      out[n, o] = (∑ k, x[n, k] · (s[o, k] · g[k])) · h[o] + b[o]        (n < 8192, o < 4096, k < 4096).

  Two spellings of it are stated here, with the law that joins them.  `rowForm` is the shape in which a blocked
  matrix product meets it: a row of activations against a row of already-scaled weights, then a scale and a shift
  read from two one-row arrays.  `linear` is the same with the weight row spelt `s[o, k] · g[k]` and the scale and
  shift read from vectors.  The reference groups each summand the other way, `(x[n, k] · g[k]) · s[o, k]`; the two
  groupings agree on every extended real, infinite ones included, because multiplication there is commutative and
  associative (no distributivity is used, so no finiteness is needed).
-/
import Idealize.ShloMosaic.PureOps.Ideal
import Idealize.ShloMosaic.Lib.ValueIdx

noncomputable section

open scoped BigOperators

namespace Cert.OneBitLinear

open Idealize.ShloMosaic Idealize.ShloMosaic.ValueIdx

/-- Activations and outputs: 8192 rows of 4096. -/
abbrev Acts : Shape := ⟨2, ![8192, 4096]⟩
/-- The sign matrix: 4096 output rows of 4096 inputs. -/
abbrev Wts : Shape := ⟨2, ![4096, 4096]⟩
/-- A vector over the inputs or over the outputs. -/
abbrev Vec4096 : Shape := ⟨1, ![4096]⟩
/-- The same vector laid out as one row. -/
abbrev Row4096 : Shape := ⟨2, ![1, 4096]⟩

/-- Row `n` of `X` against row `o` of `W`, scaled by `H[0, o]` and shifted by `B[0, o]`. -/
def rowForm (X : Acts.Idx → EReal) (W : Wts.Idx → EReal) (H B : Row4096.Idx → EReal) : Acts.Idx → EReal :=
  fun i => (∑ k : Fin 4096, X (ix2 (i 0) k) * W (ix2 (i 1) k)) * H (ix2 (0 : Fin 1) (i 1)) + B (ix2 (0 : Fin 1) (i 1))

/-- `rowForm` at an index whose row is `n` and whose column is `o`. -/
theorem rowForm_apply_of (X : Acts.Idx → EReal) (W : Wts.Idx → EReal) (H B : Row4096.Idx → EReal) (i : Acts.Idx)
    (n : Fin 8192) (o : Fin 4096) (hn : i 0 = n) (ho : i 1 = o) :
    rowForm X W H B i = (∑ k : Fin 4096, X (ix2 n k) * W (ix2 o k)) * H (ix2 (0 : Fin 1) o) + B (ix2 (0 : Fin 1) o) := by
  unfold rowForm
  rw [hn, ho]

/-- The layer: `(∑ k, x[n, k] · (s[o, k] · g[k])) · h[o] + b[o]`. -/
def linear (x : Acts.Idx → EReal) (s : Wts.Idx → EReal) (g h b : Vec4096.Idx → EReal) : Acts.Idx → EReal :=
  fun i => (∑ k : Fin 4096, x (ix2 (i 0) k) * (s (ix2 (i 1) k) * g (ix1 k))) * h (ix1 (i 1)) + b (ix1 (i 1))

/-- The sign matrix with each row scaled entry by entry: `s[o, k] · g[k]` at `(o, k)`. -/
def scaledRows (s : Wts.Idx → EReal) (g : Vec4096.Idx → EReal) : Wts.Idx → EReal := fun j => s j * g (ix1 (j 1))

/-- A vector laid out as one row: `h[o]` at `(0, o)`. -/
def asRow (h : Vec4096.Idx → EReal) : Row4096.Idx → EReal := fun j => h (ix1 (j 1))

/-- `rowForm` over the scaled weights `s[o, k] · g[k]` and the vectors read as rows is `linear`. -/
theorem rowForm_scaled (x : Acts.Idx → EReal) (s : Wts.Idx → EReal) (g h b : Vec4096.Idx → EReal) :
    rowForm x (scaledRows s g) (asRow h) (asRow b) = linear x s g h b := by
  funext i
  unfold rowForm linear scaledRows asRow
  rfl

/-- Scaling the weight or scaling the activation: one product of three extended reals. -/
theorem mul_scaled (a w c : EReal) : a * (w * c) = (a * c) * w := by
  rw [mul_comm w c, mul_assoc]

/-- `linear` with each summand grouped as the reference groups it, `(x[n, k] · g[k]) · s[o, k]`. -/
theorem linear_apply_regrouped (x : Acts.Idx → EReal) (s : Wts.Idx → EReal) (g h b : Vec4096.Idx → EReal) (i : Acts.Idx) :
    linear x s g h b i
      = (∑ k : Fin 4096, (x (ix2 (i 0) k) * g (ix1 k)) * s (ix2 (i 1) k)) * h (ix1 (i 1)) + b (ix1 (i 1)) := by
  unfold linear
  simp only [mul_scaled]

end Cert.OneBitLinear

end
-- ==== Proof.Blocks.lean ====
/-
  From blocks to the whole array.  The grid has 4 × 16 points; point `t`, with block indices `(r, c)` of the output
  window (`r < 16` row blocks of 512, `c < 4` column blocks of 1024), is given rows `512 r …` of the activations, rows
  `1024 c …` of the scaled weights and columns `1024 c …` of the two one-row arrays, and writes back the 512 × 1024
  block at `(512 r, 1024 c)`.  So what it writes at `(p, q)` is `rowForm` of the four arrays at
  `(512 r + p, 1024 c + q)`; the 64 blocks tile the 8192 × 4096 output (the block holding `(n, o)` is
  `(n / 512, o / 1024)`), hence the output array ends holding `rowForm` of the four arrays the region was given.
-/
import proofs.«106463_j15290083574248_2_alg».proof.Proof.Gen.KernelIdeal.Value
import proofs.«106463_j15290083574248_2_alg».proof.Proof.Payload
import proofs.«106463_j15290083574248_2_alg».proof.Proof.Spec

noncomputable section

open scoped BigOperators

namespace Cert.OneBitLinear.Kernel

open Cert.KernelIdeal Cert.KernelIdeal.Gen Idealize.ShloMosaic Idealize.ShloMosaic.TcCoe Idealize.SL.Sem
open Idealize.ShloMosaic.ValueIdx Cert.OneBitLinear
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- How each input window moves with the output's block `(r, c)`: the activations follow the row block, the weights
    and the two one-row arrays follow the column block, and there are 16 row blocks and 4 column blocks. -/
theorem index_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 15 ∧ win0_4.index t (1 : Fin 2) ≤ 3 :=
  (by decide +kernel : ∀ t : Fin grid0.N, _)

/-- Every block `(r, c)` of the output is some point's. -/
theorem index_onto : ∀ (r : Fin 16) (c : Fin 4), ∃ t : Fin cfg0.N, win0_4.index t = ![r.val, c.val] :=
  (by decide +kernel : ∀ (r : Fin 16) (c : Fin 4), ∃ t : Fin grid0.N, win0_4.index t = ![r.val, c.val])

/-! ## Each input block read from its array -/

/-- Row `p` of the activation block at point `t` is row `512 r + p` of the activations. -/
theorem actsBlock_apply (c : Dev nD) (t : Fin cfg0.N) (p : Fin 512) (k : Fin 4096) (n : Fin 8192)
    (hn : n.val = win0_4.index t (0 : Fin 2) * 512 + p.val) :
    iblk m c 0 t (ix2 p k) = V m c main_arg0 (ix2 n k) := by
  obtain ⟨e0, e1, -⟩ := index_facts t
  show V m c main_arg0 (((cfg0.win 0).blk t).view.emb (ix2 p k)) = V m c main_arg0 (ix2 n k)
  refine congrArg (V m c main_arg0) (funext fun a => Fin.ext ?_)
  match a with
  | ⟨0, _⟩ => show win0_0.index t (0 : Fin 2) * 512 + 1 * p.val = n.val; omega
  | ⟨1, _⟩ => show win0_0.index t (1 : Fin 2) * 4096 + 1 * k.val = k.val; omega

/-- Row `q` of the weight block at point `t` is row `1024 c + q` of the scaled weights. -/
theorem wtsBlock_apply (c : Dev nD) (t : Fin cfg0.N) (q : Fin 1024) (k : Fin 4096) (o : Fin 4096)
    (ho : o.val = win0_4.index t (1 : Fin 2) * 1024 + q.val) :
    iblk m c 1 t (ix2 q k) = V m c main_v3 (ix2 o k) := by
  obtain ⟨-, -, e0, e1, -⟩ := index_facts t
  show V m c main_v3 (((cfg0.win 1).blk t).view.emb (ix2 q k)) = V m c main_v3 (ix2 o k)
  refine congrArg (V m c main_v3) (funext fun a => Fin.ext ?_)
  match a with
  | ⟨0, _⟩ => show win0_1.index t (0 : Fin 2) * 1024 + 1 * q.val = o.val; omega
  | ⟨1, _⟩ => show win0_1.index t (1 : Fin 2) * 4096 + 1 * k.val = k.val; omega

/-- Column `q` of the scale block at point `t` is column `1024 c + q` of the one-row scale array. -/
theorem scaleBlock_apply (c : Dev nD) (t : Fin cfg0.N) (q : Fin 1024) (o : Fin 4096)
    (ho : o.val = win0_4.index t (1 : Fin 2) * 1024 + q.val) :
    iblk m c 2 t (ix2 (0 : Fin 1) q) = V m c main_v4 (ix2 (0 : Fin 1) o) := by
  obtain ⟨-, -, -, -, e0, e1, -⟩ := index_facts t
  show V m c main_v4 (((cfg0.win 2).blk t).view.emb (ix2 (0 : Fin 1) q)) = V m c main_v4 (ix2 (0 : Fin 1) o)
  refine congrArg (V m c main_v4) (funext fun a => Fin.ext ?_)
  match a with
  | ⟨0, _⟩ => show win0_2.index t (0 : Fin 2) * 1 + 1 * 0 = 0; omega
  | ⟨1, _⟩ => show win0_2.index t (1 : Fin 2) * 1024 + 1 * q.val = o.val; omega

/-- Column `q` of the shift block at point `t` is column `1024 c + q` of the one-row shift array. -/
theorem shiftBlock_apply (c : Dev nD) (t : Fin cfg0.N) (q : Fin 1024) (o : Fin 4096)
    (ho : o.val = win0_4.index t (1 : Fin 2) * 1024 + q.val) :
    iblk m c 3 t (ix2 (0 : Fin 1) q) = V m c main_v5 (ix2 (0 : Fin 1) o) := by
  obtain ⟨-, -, -, -, -, -, e0, e1, -⟩ := index_facts t
  show V m c main_v5 (((cfg0.win 3).blk t).view.emb (ix2 (0 : Fin 1) q)) = V m c main_v5 (ix2 (0 : Fin 1) o)
  refine congrArg (V m c main_v5) (funext fun a => Fin.ext ?_)
  match a with
  | ⟨0, _⟩ => show win0_3.index t (0 : Fin 2) * 1 + 1 * 0 = 0; omega
  | ⟨1, _⟩ => show win0_3.index t (1 : Fin 2) * 1024 + 1 * q.val = o.val; omega

/-! ## What a point writes back -/

/-- Point `t` writes back block `t` of `rowForm` of the four arrays the region was given. -/
theorem flushed_eq (c : Dev nD) (t : Fin cfg0.N) :
    (dats m 0 c).flushed 4 t = ((cfg0.win 4).blk t).view.read (Elt Ideal)
      (rowForm (V m c main_arg0) (V m c main_v3) (V m c main_v4) (V m c main_v5)) := by
  rw [Cert.KernelIdeal.Value.flushed4]
  unfold out0_4
  rw [View.canon_unit_zero zeroOffsets]
  simp only [View.ld_unit_zero (S := S512x4096) zeroOffsets, View.ld_unit_zero (S := S1024x4096) zeroOffsets,
    View.ld_unit_zero (S := S1x1024) zeroOffsets]
  obtain ⟨-, -, -, -, -, -, -, -, b0, b1⟩ := index_facts t
  funext j
  obtain ⟨p, q, rfl⟩ : ∃ (p : Fin 512) (q : Fin 1024), j = ix2 p q := ⟨j 0, j 1, eq_ix2 j⟩
  have hp : p.val < 512 := p.isLt
  have hq : q.val < 1024 := q.isLt
  show k0_pay1 (iblk m c 0 t) (iblk m c 1 t) (iblk m c 2 t) (iblk m c 3 t) (ix2 p q)
    = rowForm (V m c main_arg0) (V m c main_v3) (V m c main_v4) (V m c main_v5) (((cfg0.win 4).blk t).view.emb (ix2 p q))
  refine (payload_apply (iblk m c 0 t) (iblk m c 1 t) (iblk m c 2 t) (iblk m c 3 t) p q).trans ?_
  refine Eq.trans ?_ (rowForm_apply_of _ _ _ _ _
    (⟨win0_4.index t (0 : Fin 2) * 512 + p.val, by omega⟩ : Fin 8192) (⟨win0_4.index t (1 : Fin 2) * 1024 + q.val, by omega⟩ : Fin 4096)
    (Fin.ext (by show win0_4.index t (0 : Fin 2) * 512 + 1 * p.val = win0_4.index t (0 : Fin 2) * 512 + p.val; omega))
    (Fin.ext (by show win0_4.index t (1 : Fin 2) * 1024 + 1 * q.val = win0_4.index t (1 : Fin 2) * 1024 + q.val; omega))).symm
  rw [Finset.sum_congr rfl fun k _ => by
      rw [actsBlock_apply m c t p k ⟨win0_4.index t (0 : Fin 2) * 512 + p.val, by omega⟩ rfl,
        wtsBlock_apply m c t q k ⟨win0_4.index t (1 : Fin 2) * 1024 + q.val, by omega⟩ rfl],
    scaleBlock_apply m c t q ⟨win0_4.index t (1 : Fin 2) * 1024 + q.val, by omega⟩ rfl,
    shiftBlock_apply m c t q ⟨win0_4.index t (1 : Fin 2) * 1024 + q.val, by omega⟩ rfl]

/-! ## The blocks tile the output -/

/-- An index of the output is in point `t`'s block iff each coordinate is in the block's range on its axis. -/
theorem mem_block (t : Fin cfg0.N) (i : S8192x4096.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v6).slice (win0_4.rect t)).set ↔ _
  rw [View.set_slice_whole, Rect.mem_set_unit]
  exact Iff.rfl

/-- Every index `(n, o)` of the output is in the block `(n / 512, o / 1024)`, which some point writes back. -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win0_4.index t (0 : Fin 2) = (i 0).val / 512 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The output array after the run is `rowForm` of the four arrays the region was given. -/
theorem final (c : Dev nD) :
    (dats m 0 c).arrAt 4 cfg0.N = rowForm (V m c main_arg0) (V m c main_v3) (V m c main_v4) (V m c main_v5) :=
  (dats m 0 c).arrAt_eq_of_cover 4 _ (fun t _ => flushed_eq m c t) covered

end Cert.OneBitLinear.Kernel

end
-- ==== Proof.HostPrefix.lean ====
/-
  What the region is given.  Before the call the program scales the sign matrix by the input scale along each row,
  `(s · g[None, :])[o, k] = s[o, k] · g[k]` (the rounding to bf16 that follows is the identity on the extended reals),
  and lays the output scale and the bias out as one-row arrays, `h2[0, o] = h[o]`, `b2[0, o] = b[o]`.
-/
import proofs.«106463_j15290083574248_2_alg».proof.Proof.Gen.KernelIdeal.Frame
import proofs.«106463_j15290083574248_2_alg».proof.Proof.Spec
import Idealize.ShloMosaic.Lib.StableHlo.Run
import Idealize.ShloMosaic.Lib.Pipeline.Value
import Idealize.ShloMosaic.Lib.ValueIdx

noncomputable section

namespace Cert.OneBitLinear.Kernel

open Cert.KernelIdeal Cert.KernelIdeal.Gen Idealize.ShloMosaic Idealize.ShloMosaic.TcCoe Idealize.SL.Sem
open Idealize.ShloMosaic.StableHlo Idealize.ShloMosaic.ValueIdx Cert.OneBitLinear

variable (m : (ℓ : Loc nD τ sig) → Buf (Elt Ideal) ℓ)

/-- A vector broadcast to one row and then down the rows of a square array is read at the column. -/
theorem rowsOfVector_apply (g : FVec Ideal S4096 .f32) (j : S4096x4096.Idx) :
    broadcastInDim S4096x4096 ![0, 1] bcast_S1x4096_S4096x4096_0_1 (broadcastInDim S1x4096 ![1] bcast_S4096_S1x4096_1 g) j
      = g (ix1 (j 1)) :=
  (broadcastInDim_apply _ bcast_S1x4096_S4096x4096_0_1 (broadcastInDim S1x4096 ![1] bcast_S4096_S1x4096_1 g) j
      (ix2 (0 : Fin 1) (j 1)) (fun a => match a with
    | ⟨0, _⟩ => by show 0 = if (1 : Nat) = 1 then 0 else (j 0).val; rw [if_pos rfl]
    | ⟨1, _⟩ => by show (j 1).val = if (4096 : Nat) = 1 then 0 else (j 1).val; rw [if_neg (by decide)])).trans
  (broadcastInDim_apply _ bcast_S4096_S1x4096_1 g (ix2 (0 : Fin 1) (j 1)) (ix1 (j 1)) (fun a => match a with
    | ⟨0, _⟩ => by show (j 1).val = if (4096 : Nat) = 1 then 0 else (j 1).val; rw [if_neg (by decide)]))

/-- A vector reshaped to one row is read at the column. -/
theorem rowOfVector_apply (h : FVec Ideal S4096 .f32) (j : S1x4096.Idx) :
    shapeCast S1x4096 h shapeCasts_S4096_S1x4096 j = h (ix1 (j 1)) := by
  refine shapeCast_apply h shapeCasts_S4096_S1x4096 j (ix1 (j 1)) ?_
  have h0 : (j 0).val = 0 := by have h1 : (j 0).val < 1 := (j 0).isLt; omega
  rw [Shape.rowMajor_val_one, Shape.rowMajor_val_two]
  show (j 1).val = (j 0).val * 4096 + (j 1).val
  omega

/-- The weights the region is given: the sign matrix, each row scaled entry by entry by the input scale. -/
theorem scaledWeights_eq (c : Dev nD) :
    (V m c main_v3 : S4096x4096.Idx → EReal)
      = scaledRows (m ((c : Thread nD τ).loc main_arg1)) (m ((c : Thread nD τ).loc main_arg2)) := by
  have e : (V m c main_v3 : S4096x4096.Idx → EReal)
      = (truncf (F := Ideal) .bf16 (mulf (F := Ideal) (m ((c : Thread nD τ).loc main_arg1) : FVec Ideal S4096x4096 .f32)
          (broadcastInDim S4096x4096 ![0, 1] bcast_S1x4096_S4096x4096_0_1
            (broadcastInDim S1x4096 ![1] bcast_S4096_S1x4096_1 (m ((c : Thread nD τ).loc main_arg2) : FVec Ideal S4096 .f32))))
          bitsLt_bf16_f32 : FVec Ideal S4096x4096 .bf16) := by
    dsimp only [Gen.V, Gen.hostOps0]; after_results; all_goals rfl
  rw [e]
  funext j
  rw [truncf_apply, mulf_apply, rowsOfVector_apply]
  rfl

/-- The one-row scale array the region is given holds the output scale. -/
theorem scaleRow_eq (c : Dev nD) :
    (V m c main_v4 : S1x4096.Idx → EReal) = asRow (m ((c : Thread nD τ).loc main_arg3)) := by
  have e : (V m c main_v4 : S1x4096.Idx → EReal)
      = shapeCast S1x4096 (m ((c : Thread nD τ).loc main_arg3) : FVec Ideal S4096 .f32) shapeCasts_S4096_S1x4096 := by
    dsimp only [Gen.V, Gen.hostOps0]; after_results; all_goals rfl
  rw [e]
  funext j
  exact rowOfVector_apply _ j

/-- The one-row shift array the region is given holds the bias. -/
theorem shiftRow_eq (c : Dev nD) :
    (V m c main_v5 : S1x4096.Idx → EReal) = asRow (m ((c : Thread nD τ).loc main_arg4)) := by
  have e : (V m c main_v5 : S1x4096.Idx → EReal)
      = shapeCast S1x4096 (m ((c : Thread nD τ).loc main_arg4) : FVec Ideal S4096 .f32) shapeCasts_S4096_S1x4096 := by
    dsimp only [Gen.V, Gen.hostOps0]; after_results; all_goals rfl
  rw [e]
  funext j
  exact rowOfVector_apply _ j

end Cert.OneBitLinear.Kernel

end
-- ==== Proof.KernelValue.lean ====
/-
  The kernel's run, read: the output array ends holding the layer `linear` of the five argument arrays.  The blocks
  give `rowForm` of the activations, the scaled weights and the two one-row arrays the region was given; the host
  operations before the call make those the sign matrix scaled row by row and the scale and bias vectors read as rows;
  and `rowForm` of these is `linear`.
-/
import proofs.«106463_j15290083574248_2_alg».proof.Proof.Blocks
import proofs.«106463_j15290083574248_2_alg».proof.Proof.HostPrefix

noncomputable section

namespace Cert.OneBitLinear.Kernel

open Cert.KernelIdeal Cert.KernelIdeal.Gen Idealize.ShloMosaic Idealize.ShloMosaic.TcCoe Idealize.SL.Sem
open Idealize.ShloMosaic.ValueIdx Cert.OneBitLinear
open Idealize.ShloMosaic.Pipeline (Dat)

variable (m : (ℓ : Loc nD τ sig) → Buf (Elt Ideal) ℓ) (ρ : Dev nD → PrngReg)

/-- The layer of the argument arrays as launched, on core `c`. -/
abbrev layer (c : Dev nD) : S8192x4096.Idx → EReal :=
  linear (m ((c : Thread nD τ).loc main_arg0)) (m ((c : Thread nD τ).loc main_arg1)) (m ((c : Thread nD τ).loc main_arg2)) (m ((c : Thread nD τ).loc main_arg3)) (m ((c : Thread nD τ).loc main_arg4))

/-- The output array after the run is the layer of the arguments. -/
theorem result_eq (c : Dev nD) : (dats m 0 c).arrAt 4 cfg0.N = layer m c := by
  rw [final, V_main_arg0, scaledWeights_eq, scaleRow_eq, shiftRow_eq]
  exact rowForm_scaled _ _ _ _ _

/-- Every weakly fair execution of the kernel program terminates with the output at the layer of the arguments and
    the arguments unchanged. -/
theorem run : θ_run defs (onTc (τ := τ) (main (F := Ideal))) ⟨m, fun _ => 0, ρ⟩ fun r => ∀ c : Dev nD,
      r.2.mem ((c : Thread nD τ).loc main_v6) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩)
    (Cert.KernelIdeal.Value.run_blocks m ρ)

end Cert.OneBitLinear.Kernel

end
-- ==== Proof.Reference.lean ====
/-
  The reference program, read one operation at a time, is the layer `linear` of its five arguments:
  `x * g[None, :]` puts `x[n, k] · g[k]` at `(n, k)`, the einsum contracts it with `s[o, k]` over `k`, and the two
  broadcast vectors scale and shift column `o`.  Each summand arrives grouped `(x · g) · s`; `linear` groups it
  `x · (s · g)`, and the regrouping law of the specification joins them.
-/
import proofs.«106463_j15290083574248_2_alg».proof.Proof.Gen.ReferenceIdeal.Read
import proofs.«106463_j15290083574248_2_alg».proof.Proof.Spec

noncomputable section

open scoped BigOperators

namespace Cert.OneBitLinear.Reference

open Cert.ReferenceIdeal Cert.ReferenceIdeal.Read Idealize.ShloMosaic Idealize.ShloMosaic.ValueIdx Cert.OneBitLinear

/-- The left operand of the contraction at `(n, k)`. -/
theorem lidx_eq (i : S8192x4096.Idx) (k : Fin 4096) : lidx_main_v3 i k = ix2 (i 0) k :=
  funext fun a => Fin.ext (by match a with | ⟨0, _⟩ => rfl | ⟨1, _⟩ => rfl)

/-- The right operand of the contraction at `(o, k)`. -/
theorem ridx_eq (i : S8192x4096.Idx) (k : Fin 4096) : ridx_main_v3 i k = ix2 (i 1) k :=
  funext fun a => Fin.ext (by match a with | ⟨0, _⟩ => rfl | ⟨1, _⟩ => rfl)

/-- The input scale broadcast along the rows, read at the left operand's `(n, k)`, is read at `k`. -/
theorem gidx_eq (i : S8192x4096.Idx) (k : Fin 4096) : idx_main_v0 (idx_main_v1 (lidx_main_v3 i k)) = ix1 k :=
  funext fun a => Fin.ext (by match a with | ⟨0, _⟩ => rfl)

/-- The output scale broadcast along the rows is read at the column. -/
theorem hidx_eq (i : S8192x4096.Idx) : idx_main_v4 (idx_main_v5 i) = ix1 (i 1) :=
  funext fun a => Fin.ext (by match a with | ⟨0, _⟩ => rfl)

/-- The bias broadcast along the rows is read at the column. -/
theorem bidx_eq (i : S8192x4096.Idx) : idx_main_v7 (idx_main_v8 i) = ix1 (i 1) :=
  funext fun a => Fin.ext (by match a with | ⟨0, _⟩ => rfl)

/-- The reference's result, as a function of its arguments, is `linear`. -/
theorem result_eq (x : (⟨S8192x4096, .f32⟩ : BufTy).Contents (Elt Ideal)) (s : (⟨S4096x4096, .f32⟩ : BufTy).Contents (Elt Ideal))
    (g h b : (⟨S4096, .f32⟩ : BufTy).Contents (Elt Ideal)) :
    val_main_v9 (F := Ideal) x s g h b = linear x s g h b := by
  funext i
  rw [linear_apply_regrouped, val_main_v9_apply, val_main_v6_apply, val_main_v3_apply, val_main_v5_apply, val_main_v4_apply,
    val_main_v8_apply, val_main_v7_apply]
  simp only [val_main_v2_apply, val_main_v1_apply, val_main_v0_apply]
  simp only [gidx_eq, hidx_eq, bidx_eq]
  simp only [lidx_eq, ridx_eq]
  rfl

end Cert.OneBitLinear.Reference

end
-- ==== Proof.lean ====
/-
  The certificate of the one-bit linear layer: a blocked kernel computing `x @ (s · g)ᵀ · h + b` block by block on a
  4 × 16 grid, against the reference `((x · g) @ sᵀ) · h + b`.

  On the extended reals both programs end with the output array at ONE function of the five argument arrays,

      out[n, o] = (∑ k, x[n, k] · (s[o, k] · g[k])) · h[o] + b[o]

  (`Cert.OneBitLinear.linear`).  The kernel side: each grid point stores a block product into a zero accumulator — a
  plain sum over the contracted axis — scaled and shifted by one-row blocks; the 64 blocks tile the output; and the
  host operations before the call scale the sign matrix by `g` row by row and lay `h` and `b` out as rows.  The
  reference side: its operations read at an index give the same sum with each summand grouped `(x · g) · s`.
  The two groupings agree because multiplication of extended reals is commutative and associative; nothing is
  distributed over a sum, so the finiteness of the inputs is never used.  The idealization rewrote nothing, so
  `preserves` has no conjunct.  The three frames are the generated ones (the reference's is its run with the
  result dropped).
-/
import proofs.«106463_j15290083574248_2_alg».proof.Defs
import proofs.«106463_j15290083574248_2_alg».proof.Proof.Gen.Kernel
import proofs.«106463_j15290083574248_2_alg».proof.Proof.Gen.Kernel.Skeleton
import proofs.«106463_j15290083574248_2_alg».proof.Proof.Gen.Kernel.Launch
import proofs.«106463_j15290083574248_2_alg».proof.Proof.Gen.Kernel.Points
import proofs.«106463_j15290083574248_2_alg».proof.Proof.Gen.Kernel.Frame
import proofs.«106463_j15290083574248_2_alg».proof.Proof.Gen.KernelIdeal
import proofs.«106463_j15290083574248_2_alg».proof.Proof.Gen.KernelIdeal.Skeleton
import proofs.«106463_j15290083574248_2_alg».proof.Proof.Gen.KernelIdeal.Launch
import proofs.«106463_j15290083574248_2_alg».proof.Proof.Gen.KernelIdeal.Points
import proofs.«106463_j15290083574248_2_alg».proof.Proof.Gen.KernelIdeal.Frame
import proofs.«106463_j15290083574248_2_alg».proof.Proof.Gen.ReferenceIdeal
import proofs.«106463_j15290083574248_2_alg».proof.Proof.Gen.Pre_finite_inputs
import proofs.«106463_j15290083574248_2_alg».proof.Proof.Gen.KernelIdeal.Value
import proofs.«106463_j15290083574248_2_alg».proof.Proof.Gen.ReferenceIdeal.Run
import proofs.«106463_j15290083574248_2_alg».proof.Proof.Gen.ReferenceIdeal.Read
import proofs.«106463_j15290083574248_2_alg».proof.Proof.KernelValue
import proofs.«106463_j15290083574248_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: nothing was rewritten. -/
theorem preserves : Cert.preserves_Kernel_KernelIdeal := trivial

/-- From memories agreeing on the arguments both programs end with the output at the layer of the arguments: the
    kernel by its run read block by block, the reference by its operations read at an index. -/
theorem algebraic : Cert.algebraic_KernelIdeal_ReferenceIdeal := by
  intro m ρ m' ρ' _ hagree
  refine ⟨fun c => Cert.OneBitLinear.Kernel.layer m c, Cert.OneBitLinear.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.OneBitLinear.Reference.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
